-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S128x128 : Shape := ⟨2, ![128, 128]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S1048576x128 .f32) (main_arg1 : FVec F S1048576x128 .f32) (main_arg2 : FVec F S128x128 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S1048576x128 .f32 := Host.absf main_arg1
  let main_cst_0 : FVec F S_ .f32 := constant S_ .f32 0x7F800000#32
  let main_v5 : FVec F S1048576x128 .f32 := broadcastInDim S1048576x128 ![] bcast_S_S1048576x128 main_cst_0
  let main_v6 : IVec S1048576x128 1 := cmpf .olt main_v4 main_v5
  let main_c_1 : IVec S_ 1 := constantI S_ 1 1#1
  let main_v7 : IVec S_ 1 := (fun x v => Host.reduce IntOp.andi x v reducesTo_S1048576x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S1048576x128 : Shape := ⟨2, ![1048576, 128]⟩
abbrev S128x128 : Shape := ⟨2, ![128, 128]⟩
abbrev S8192x128 : Shape := ⟨2, ![8192, 128]⟩

abbrev nBuf : Space → Nat
  | .hbm => 5
  | .vmem => 7
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S128x128, .f32⟩
  | .hbm, ⟨3, _⟩ => ⟨S128x128, .f32⟩
  | .hbm, ⟨4, _⟩ => ⟨S1048576x128, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S128x128, .f32⟩
  | .local _ .vmem, ⟨5, _⟩ => ⟨S8192x128, .f32⟩
  | .local _ .vmem, ⟨6, _⟩ => ⟨S8192x128, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x128_S128x128_1_0 : S128x128.Transposes [1, 0] S128x128
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1048576x128.size a
  hwx0_0 : ∀ i : grid0.Coords, EltTy.bits .f32 = 32 ∨ (Rect.block (s := S1048576x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1048576x128.size a
  hwx0_1 : ∀ i : grid0.Coords, EltTy.bits .f32 = 32 ∨ (Rect.block (s := S1048576x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S1048576x128.size a
  hwx0_3 : ∀ i : grid0.Coords, EltTy.bits .f32 = 32 ∨ (Rect.block (s := S1048576x128) S8192x128.size (cc0_transform_3 i) (hinb0_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x128 : Shape := ⟨2, ![1048576, 128]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S128x128, .f32⟩
  | .hbm, ⟨3, _⟩ => ⟨S1048576x128, .f32⟩
  | .hbm, ⟨4, _⟩ => ⟨S1048576x128, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S1048576x128_S128x128_S1048576x128_1_1_0_0_n_n_wf : DotDims.WF S1048576x128 S128x128 S1048576x128 [1] [1] [0] [0] [] []

variable [Facts₀]

def dot_S1048576x128_S128x128_S1048576x128_1_1_0_0_n_n : DotDims S1048576x128 S128x128 S1048576x128 where
  lhsContracting := [1]
  rhsContracting := [1]
  lhsNonContracting := [0]
  rhsNonContracting := [0]
  lhsBatch := []
  rhsBatch := []
  wf := dot_S1048576x128_S128x128_S1048576x128_1_1_0_0_n_n_wf

class Facts : Prop extends Facts₀ where

variable [Facts]
-- ==== Proof.Recurrence.lean ====
/-
  One step of a linear recurrent cell, as a function of its three arrays, entry by entry, over the extended reals.

  The state `h` has 1048576 rows of 128 entries; the weight `W` is 128 × 128; the input `x` has the state's shape.
  The next state's entry in row `b`, column `g` is the inner product of row `b` of `h` with row `g` of `W`, plus
  `x` at `(b, g)`:   next (b, g) = (∑ k, h (b, k) · W (g, k)) + x (b, g).
  The same step written against the transposed weight `Wt (k, g) = W (g, k)` multiplies row `b` of `h` into
  column `g` of `Wt`; the two forms are one function once `Wt` is the transpose of `W`.
-/
import Idealize.ShloMosaic.Lib.ValueIdx
import Idealize.ShloMosaic.PureOps.Ideal

noncomputable section

namespace Cert.Recurrence

open Idealize.ShloMosaic Idealize.ShloMosaic.ValueIdx
open scoped BigOperators

/-- The next state at row `b`, column `g`: row `b` of the state against row `g` of the weight, plus the input there. -/
def stepAt (x h : FVec Ideal ⟨2, ![1048576, 128]⟩ .f32) (W : FVec Ideal ⟨2, ![128, 128]⟩ .f32)
    (b : Fin 1048576) (g : Fin 128) : Ideal .f32 :=
  (∑ k : Fin 128, h (ix2 b k) * W (ix2 g k)) + x (ix2 b g)

/-- The same entry against a weight stored transposed: row `b` of the state against column `g` of `Wt`. -/
def stepTAt (x h : FVec Ideal ⟨2, ![1048576, 128]⟩ .f32) (Wt : FVec Ideal ⟨2, ![128, 128]⟩ .f32)
    (b : Fin 1048576) (g : Fin 128) : Ideal .f32 :=
  (∑ k : Fin 128, h (ix2 b k) * Wt (ix2 k g)) + x (ix2 b g)

/-- The next state as an array. -/
def step (x h : FVec Ideal ⟨2, ![1048576, 128]⟩ .f32) (W : FVec Ideal ⟨2, ![128, 128]⟩ .f32) :
    FVec Ideal ⟨2, ![1048576, 128]⟩ .f32 :=
  fun i => stepAt x h W (i 0) (i 1)

/-- The next state as an array, against the transposed weight. -/
def stepT (x h : FVec Ideal ⟨2, ![1048576, 128]⟩ .f32) (Wt : FVec Ideal ⟨2, ![128, 128]⟩ .f32) :
    FVec Ideal ⟨2, ![1048576, 128]⟩ .f32 :=
  fun i => stepTAt x h Wt (i 0) (i 1)

/-- When `Wt (k, g) = W (g, k)` for all `k`, `g`, the two forms give the same entry. -/
theorem stepTAt_eq_stepAt (x h : FVec Ideal ⟨2, ![1048576, 128]⟩ .f32) (W Wt : FVec Ideal ⟨2, ![128, 128]⟩ .f32)
    (hT : ∀ k g : Fin 128, Wt (ix2 k g) = W (ix2 g k)) (b : Fin 1048576) (g : Fin 128) :
    stepTAt x h Wt b g = stepAt x h W b g := by
  unfold stepTAt stepAt
  refine congrArg (· + x (ix2 b g)) (Finset.sum_congr rfl fun k _ => ?_)
  rw [hT]

/-- So the two arrays are equal. -/
theorem stepT_eq_step (x h : FVec Ideal ⟨2, ![1048576, 128]⟩ .f32) (W Wt : FVec Ideal ⟨2, ![128, 128]⟩ .f32)
    (hT : ∀ k g : Fin 128, Wt (ix2 k g) = W (ix2 g k)) : stepT x h Wt = step x h W :=
  funext fun i => stepTAt_eq_stepAt x h W Wt hT (i 0) (i 1)

end Cert.Recurrence

end
-- ==== Proof.RefStep.lean ====
/-
  The reference computes the recurrence step: its contraction pairs column `k` of the state's row `b` with column `k`
  of the weight's row `g` (both operands are contracted on their second axis), and the input is then added entry by
  entry.
-/
import proofs.«147509_j8564164788383_1_alg».proof.Proof.Gen.ReferenceIdeal.Read
import proofs.«147509_j8564164788383_1_alg».proof.Proof.Recurrence

noncomputable section

namespace Cert.RefStep

open Cert.ReferenceIdeal Cert.ReferenceIdeal.Read Idealize.ShloMosaic Idealize.ShloMosaic.ValueIdx
open scoped BigOperators

/-- The state is read at the result's row and the running column. -/
theorem lidx_eq (b : Fin 1048576) (g k : Fin 128) : lidx_main_v0 (ix2 b g) k = ix2 b k :=
  funext fun a => Fin.ext (by match a with | ⟨0, _⟩ => rfl | ⟨1, _⟩ => rfl)

/-- The weight is read at the row named by the result's column, and the running column. -/
theorem ridx_eq (b : Fin 1048576) (g k : Fin 128) : ridx_main_v0 (ix2 b g) k = ix2 g k :=
  funext fun a => Fin.ext (by match a with | ⟨0, _⟩ => rfl | ⟨1, _⟩ => rfl)

/-- The reference's result at row `b`, column `g` is the recurrence step's entry there. -/
theorem ref_at (x0 x1 : (⟨S1048576x128, .f32⟩ : BufTy).Contents (Elt Ideal)) (x2 : (⟨S128x128, .f32⟩ : BufTy).Contents (Elt Ideal))
    (b : Fin 1048576) (g : Fin 128) :
    val_main_v1 (F := Ideal) x0 x1 x2 (ix2 b g) = Cert.Recurrence.stepAt x0 x1 x2 b g := by
  rw [val_main_v1_apply, val_main_v0_apply]
  simp only [lidx_eq, ridx_eq]
  rfl

/-- The reference's result, as a function of its three arguments, is the recurrence step. -/
theorem ref_eq_step (x0 x1 : (⟨S1048576x128, .f32⟩ : BufTy).Contents (Elt Ideal)) (x2 : (⟨S128x128, .f32⟩ : BufTy).Contents (Elt Ideal)) :
    val_main_v1 (F := Ideal) x0 x1 x2 = Cert.Recurrence.step x0 x1 x2 := by
  funext i
  obtain ⟨b, g, rfl⟩ : ∃ (b : Fin 1048576) (g : Fin 128), i = ix2 b g := ⟨i 0, i 1, eq_ix2 i⟩
  exact ref_at x0 x1 x2 b g

end Cert.RefStep

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.BodyStep.lean ====
/-
  What the kernel body stores, read at one entry of its block. The body multiplies the state's block (8192 rows) into
  the whole transposed weight, starting from a zero accumulator, and adds the input's block. The narrowing of both
  factors to a shorter float format changes nothing over the extended reals, and the shape cast is between equal
  shapes. So at row `p`, column `q` of the block the stored value is
      (∑ k, h (p, k) · Wt (k, q)) + x (p, q).
-/
import proofs.«147509_j8564164788383_1_alg».proof.Proof.Gen.KernelIdeal.Skeleton
import proofs.«147509_j8564164788383_1_alg».proof.Proof.LibPlainMatmul
import proofs.«147509_j8564164788383_1_alg».proof.Proof.Recurrence
import Idealize.ShloMosaic.Lib.ValueIdx
import Idealize.ShloMosaic.Lib.Pipeline.Value

noncomputable section

namespace Cert.BodyStep

open Cert.KernelIdeal Cert.KernelIdeal.Gen Idealize.ShloMosaic Idealize.ShloMosaic.ValueIdx
open scoped BigOperators

/-- The stored block at `(p, q)`: row `p` of the state's block against column `q` of the transposed weight, plus
    the input's block at `(p, q)`. -/
theorem pay_apply (hb : Vec Ideal S8192x128 .f32) (wt : Vec Ideal S128x128 .f32) (xb : Vec Ideal S8192x128 .f32)
    (p : Fin 8192) (q : Fin 128) :
    k0_pay1 (F := Ideal) hb wt xb (ix2 p q) = (∑ k : Fin 128, hb (ix2 p k) * wt (ix2 k q)) + xb (ix2 p q) := by
  unfold k0_pay1
  refine congrArg (· + xb (ix2 p q)) ?_
  refine (Cert.LibPlainMatmul.matmul_zero_plain _ _ _ p q).trans ?_
  refine Finset.sum_congr rfl fun k _ => ?_
  exact congrArg (hb (ix2 p k) * ·) (congrFun (shapeCast_self wt _) (ix2 k q))

/-- The stored block at `(p, q)` is the recurrence step's entry at `(b, g)` of the arrays `X`, `H`, `Wt`, once the three
    blocks are those arrays read where that entry needs them: the input's block at `(p, q)` is `X (b, g)`, row `p` of
    the state's block is row `b` of `H`, and column `q` of the weight's block is column `g` of `Wt`. -/
theorem point_eq (X H : FVec Ideal ⟨2, ![1048576, 128]⟩ .f32) (Wt : FVec Ideal ⟨2, ![128, 128]⟩ .f32)
    (xb hb : Vec Ideal S8192x128 .f32) (wb : Vec Ideal S128x128 .f32)
    (p : Fin 8192) (q : Fin 128) (b : Fin 1048576) (g : Fin 128)
    (hx : xb (ix2 p q) = X (ix2 b g))
    (hh : ∀ k : Fin 128, hb (ix2 p k) = H (ix2 b k))
    (hw : ∀ k : Fin 128, wb (ix2 k q) = Wt (ix2 k g)) :
    k0_pay1 (F := Ideal) hb wb xb (ix2 p q) = Cert.Recurrence.stepTAt X H Wt b g := by
  rw [pay_apply, hx]
  unfold Cert.Recurrence.stepTAt
  refine congrArg (· + X (ix2 b g)) (Finset.sum_congr rfl fun k _ => ?_)
  rw [hh, hw]

end Cert.BodyStep

end
-- ==== Proof.KernelStep.lean ====
/-
  The kernel's result array is the recurrence step of its arguments.

  The grid has 128 points. Point `t` works on rows `8192·t … 8192·t + 8191`: it reads those rows of the input and of
  the state, reads the whole 128 × 128 weight — which the program transposed once before the grid started, so the
  kernel sees `Wt (k, g) = W (g, k)` —, and writes those rows of the result. At row `p`, column `q` of its block the
  body stores `(∑ k, h (8192·t + p, k) · Wt (k, q)) + x (8192·t + p, q)`, which is the recurrence step's entry at
  `(8192·t + p, q)`. Every row `r` of the result lies in the block of point `r / 8192`, so the blocks written
  cover the array and the array ends holding the step everywhere.
-/
import proofs.«147509_j8564164788383_1_alg».proof.Proof.Gen.KernelIdeal.Value
import proofs.«147509_j8564164788383_1_alg».proof.Proof.BodyStep
import proofs.«147509_j8564164788383_1_alg».proof.Proof.Recurrence
import Idealize.ShloMosaic.Lib.ValueLayout
import Idealize.ShloMosaic.Lib.StableHlo.Run

noncomputable section

namespace Cert.KernelStep

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- The body's loads and its store all start at the origin of their buffers. -/
theorem origin : (![0, 0] : Fin 2 → Nat) = fun _ => 0 := funext fun a => by fin_cases a <;> rfl

/-! ## The weight as the grid finds it -/

/-- When the grid starts, the kernel's third operand holds the weight transposed. -/
theorem weight_entry (c : Dev nD) :
    (V m c main_v0 : S128x128.Idx → Ideal .f32)
      = transpose S128x128 [1, 0] (m ((c : Thread nD τ).loc main_arg2)) Facts₀.transposes_S128x128_S128x128_1_0 := by
  dsimp only [V, hostOps0]; after_results

/-- Its entry at `(k, g)` is the weight's entry at `(g, k)`. -/
theorem weight_entry_apply (c : Dev nD) (k g : Fin 128) :
    (V m c main_v0 : S128x128.Idx → Ideal .f32) (ix2 k g) = m ((c : Thread nD τ).loc main_arg2) (ix2 g k) := by
  rw [weight_entry]
  exact transpose_ix2_apply _ _ k g

/-! ## Where each window's block sits at a point -/

/-- Over the 128 points: the input's, the state's and the result's blocks are block-row `t`, block-column `0`; the
    weight's block is always the whole weight. -/
theorem block_places : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## What a point writes back -/

/-- What point `t` writes back is block `t` of the recurrence step (against the transposed weight) of the arrays as
    the grid finds them. -/
theorem flushed_eq (c : Dev nD) (t : Fin cfg0.N) :
    (dats m 0 c).flushed 3 t = ((cfg0.win 3).blk t).view.read (Elt Ideal)
      (Cert.Recurrence.stepT (V m c main_arg0) (V m c main_arg1) (V m c main_v0)) := by
  rw [Cert.KernelIdeal.Value.flushed3]
  unfold out0_3
  rw [View.canon_unit_zero origin]
  simp only [View.ld_unit_zero (S := S8192x128) origin, View.ld_unit_zero (S := S128x128) origin]
  obtain ⟨e00, e01, e10, e11, e20, e21, e30, e31⟩ := block_places t
  funext j
  obtain ⟨p, q, rfl⟩ : ∃ (p : Fin 8192) (q : Fin 128), j = ix2 p q := ⟨j 0, j 1, eq_ix2 j⟩
  show k0_pay1 (F := Ideal) (iblk m c 1 t) (iblk m c 2 t) (iblk m c 0 t) (ix2 p q)
    = Cert.Recurrence.stepTAt (V m c main_arg0) (V m c main_arg1) (V m c main_v0)
        (((cfg0.win 3).blk t).view.emb (ix2 p q) 0) (((cfg0.win 3).blk t).view.emb (ix2 p q) 1)
  refine Cert.BodyStep.point_eq (V m c main_arg0) (V m c main_arg1) (V m c main_v0)
    (iblk m c 0 t) (iblk m c 1 t) (iblk m c 2 t) p q
    (((cfg0.win 3).blk t).view.emb (ix2 p q) 0) (((cfg0.win 3).blk t).view.emb (ix2 p q) 1) ?_ ?_ ?_
  · show V m c main_arg0 (((cfg0.win 0).blk t).view.emb (ix2 p q)) = _
    refine congrArg (V m c main_arg0) (funext fun a => Fin.ext ?_)
    match a with
    | ⟨0, _⟩ =>
      show win0_0.index t (0 : Fin 2) * 8192 + 1 * p.val = win0_3.index t (0 : Fin 2) * 8192 + 1 * p.val
      omega
    | ⟨1, _⟩ =>
      show win0_0.index t (1 : Fin 2) * 128 + 1 * q.val = win0_3.index t (1 : Fin 2) * 128 + 1 * q.val
      omega
  · intro k
    show V m c main_arg1 (((cfg0.win 1).blk t).view.emb (ix2 p k)) = _
    refine congrArg (V m c main_arg1) (funext fun a => Fin.ext ?_)
    match a with
    | ⟨0, _⟩ =>
      show win0_1.index t (0 : Fin 2) * 8192 + 1 * p.val = win0_3.index t (0 : Fin 2) * 8192 + 1 * p.val
      omega
    | ⟨1, _⟩ =>
      show win0_1.index t (1 : Fin 2) * 128 + 1 * k.val = k.val
      omega
  · intro k
    show V m c main_v0 (((cfg0.win 2).blk t).view.emb (ix2 k q)) = _
    refine congrArg (V m c main_v0) (funext fun a => Fin.ext ?_)
    match a with
    | ⟨0, _⟩ =>
      show win0_2.index t (0 : Fin 2) * 128 + 1 * k.val = k.val
      omega
    | ⟨1, _⟩ =>
      show win0_2.index t (1 : Fin 2) * 128 + 1 * q.val = win0_3.index t (1 : Fin 2) * 128 + 1 * q.val
      omega

/-! ## The blocks cover the array -/

/-- An index of the result is in point `t`'s block iff each coordinate is in the block's range on its axis. -/
theorem mem_block (t : Fin cfg0.N) (i : S1048576x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v1).slice (win0_3.rect t)).set ↔ _
  rw [View.set_slice_whole, Rect.mem_set_unit]
  exact Iff.rfl

/-- Row `r` of the result lies in the block of point `r / 8192`, which is written back. -/
theorem covered (i : S1048576x128.Idx) :
    ∃ t : Fin cfg0.N, (cfg0.win 3).flush t = true ∧ i ∈ ((cfg0.win 3).blk t).view.set := by
  have hi0 : (i 0).val < 1048576 := (i 0).isLt
  have hi1 : (i 1).val < 128 := (i 1).isLt
  have hN : cfg0.N = 128 := N_0
  refine ⟨⟨(i 0).val / 8192, by rw [hN]; omega⟩, flush0_3 _, ?_⟩
  rw [mem_block]
  obtain ⟨-, -, -, -, -, -, e30, e31⟩ := block_places ⟨(i 0).val / 8192, by rw [hN]; omega⟩
  intro a
  match a with
  | ⟨0, _⟩ =>
    show win0_3.index _ (0 : Fin 2) * 8192 ≤ (i 0).val ∧ (i 0).val < win0_3.index _ (0 : Fin 2) * 8192 + 8192
    rw [e30]
    show (i 0).val / 8192 * 8192 ≤ (i 0).val ∧ (i 0).val < (i 0).val / 8192 * 8192 + 8192
    omega
  | ⟨1, _⟩ =>
    show win0_3.index _ (1 : Fin 2) * 128 ≤ (i 1).val ∧ (i 1).val < win0_3.index _ (1 : Fin 2) * 128 + 128
    rw [e31]
    omega

/-! ## The array after the run -/

/-- The result array after the run is the recurrence step of the three argument arrays as launched. -/
theorem final (c : Dev nD) :
    (dats m 0 c).arrAt 3 cfg0.N = Cert.Recurrence.step (m ((c : Thread nD τ).loc main_arg0))
      (m ((c : Thread nD τ).loc main_arg1)) (m ((c : Thread nD τ).loc main_arg2)) := by
  rw [(dats m 0 c).arrAt_eq_of_cover 3
    (Cert.Recurrence.stepT (V m c main_arg0) (V m c main_arg1) (V m c main_v0))
    (fun t _ => flushed_eq m c t) covered]
  rw [Cert.Recurrence.stepT_eq_step _ _ (m ((c : Thread nD τ).loc main_arg2)) _ (weight_entry_apply m c),
    V_main_arg0, V_main_arg1]

/-- Every weakly fair execution of the kernel's program terminates with the result array at the recurrence step of
    the arguments, the arguments unchanged. -/
theorem run : θ_run defs (onTc (τ := τ) (main (F := Ideal))) ⟨m, fun _ => 0, ρ⟩ fun r => ∀ c : Dev nD,
      r.2.mem ((c : Thread nD τ).loc main_v1) = Cert.Recurrence.step (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelStep

end
-- ==== Proof.lean ====
/-
  One step of a linear recurrent cell: the kernel against its reference, over the extended reals.

  Both programs compute, for a state `h` of 1048576 rows by 128, a 128 × 128 weight `W` and an input `x` of the
  state's shape, the array   next (b, g) = (∑ k, h (b, k) · W (g, k)) + x (b, g).
  The reference contracts the second axis of `h` with the second axis of `W` in one product and adds `x`. The kernel
  first transposes `W`, then walks the rows in 128 blocks of 8192: each block of `h` is multiplied into the transposed
  weight from a zero accumulator and the matching block of `x` is added; its narrowing of the factors to a shorter
  float format is the identity on extended reals. Entry by entry the two sums have the same terms, so no finiteness
  of the inputs is used: the precondition is never opened.

  The three frames are the generated ones (the reference's is its generated run with the result dropped); the kernel
  and its idealization are the same text, so nothing was rewritten between them; the value claim puts the kernel's
  run (the blocks written cover the result array, each block the step's) beside the reference's run, both ending at
  the same function `Cert.Recurrence.step` of arguments that agree.
-/
import proofs.«147509_j8564164788383_1_alg».proof.Defs
import proofs.«147509_j8564164788383_1_alg».proof.Proof.Gen.Kernel
import proofs.«147509_j8564164788383_1_alg».proof.Proof.Gen.Kernel.Skeleton
import proofs.«147509_j8564164788383_1_alg».proof.Proof.Gen.Kernel.Launch
import proofs.«147509_j8564164788383_1_alg».proof.Proof.Gen.Kernel.Points
import proofs.«147509_j8564164788383_1_alg».proof.Proof.Gen.Kernel.Frame
import proofs.«147509_j8564164788383_1_alg».proof.Proof.Gen.KernelIdeal
import proofs.«147509_j8564164788383_1_alg».proof.Proof.Gen.KernelIdeal.Skeleton
import proofs.«147509_j8564164788383_1_alg».proof.Proof.Gen.KernelIdeal.Launch
import proofs.«147509_j8564164788383_1_alg».proof.Proof.Gen.KernelIdeal.Points
import proofs.«147509_j8564164788383_1_alg».proof.Proof.Gen.KernelIdeal.Frame
import proofs.«147509_j8564164788383_1_alg».proof.Proof.Gen.ReferenceIdeal
import proofs.«147509_j8564164788383_1_alg».proof.Proof.Gen.Pre_finite_inputs
import proofs.«147509_j8564164788383_1_alg».proof.Proof.Gen.KernelIdeal.Value
import proofs.«147509_j8564164788383_1_alg».proof.Proof.Gen.ReferenceIdeal.Run
import proofs.«147509_j8564164788383_1_alg».proof.Proof.Gen.ReferenceIdeal.Read
import proofs.«147509_j8564164788383_1_alg».proof.Proof.Recurrence
import proofs.«147509_j8564164788383_1_alg».proof.Proof.RefStep
import proofs.«147509_j8564164788383_1_alg».proof.Proof.KernelStep
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run to the result's value, with the value forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's result array and the reference's both end at the
    recurrence step of those arguments: the kernel's by its blocks, the reference's by its one product and one sum. -/
theorem algebraic : Cert.algebraic_KernelIdeal_ReferenceIdeal := by
  intro m ρ m' ρ' _ hagree
  refine ⟨_, Cert.KernelStep.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.RefStep.ref_eq_step, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
